-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096 : Shape := ⟨2, ![4, 4096]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : IVec S4x4096 32) (main_arg2 : FVec F S1024x4096 .f32) (main_arg3 : FVec F S4096 .f32) (main_arg4 : FVec F S4096x1024 .f32) (main_arg5 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x4096 .f32 := Host.absf main_arg2
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg5 main_v13 main_v16
-- ==== Kernel.lean ====
abbrev S4x4096x1024 : Shape := ⟨3, ![4, 4096, 1024]⟩
abbrev S4x4096 : Shape := ⟨2, ![4, 4096]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S16384x1024 : Shape := ⟨2, ![16384, 1024]⟩
abbrev S1x4096 : Shape := ⟨2, ![1, 4096]⟩
abbrev S1x1024 : Shape := ⟨2, ![1, 1024]⟩
abbrev S16384x1 : Shape := ⟨2, ![16384, 1]⟩
abbrev S_ : Shape := ⟨0, ![]⟩
abbrev S512x1024 : Shape := ⟨2, ![512, 1024]⟩
abbrev S512x1 : Shape := ⟨2, ![512, 1]⟩
abbrev S512x4096 : Shape := ⟨2, ![512, 4096]⟩

abbrev nBuf : Space → Nat
  | .hbm => 20
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S16384x1024, .f32⟩
  | .hbm, ⟨7, _⟩ => ⟨S16384x1024, .bf16⟩
  | .hbm, ⟨8, _⟩ => ⟨S1024x4096, .bf16⟩
  | .hbm, ⟨9, _⟩ => ⟨S4096x1024, .bf16⟩
  | .hbm, ⟨10, _⟩ => ⟨S1x4096, .f32⟩
  | .hbm, ⟨11, _⟩ => ⟨S1x1024, .f32⟩
  | .hbm, ⟨12, _⟩ => ⟨S16384x1, .i32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .i1⟩
  | .hbm, ⟨17, _⟩ => ⟨S16384x1, .f32⟩
  | .hbm, ⟨18, _⟩ => ⟨S16384x1024, .f32⟩
  | .hbm, ⟨19, _⟩ => ⟨S4x4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S512x1, .f32⟩
  | .local _ .vmem, ⟨7, _⟩ => ⟨S512x1, .f32⟩
  | .local _ .vmem, ⟨8, _⟩ => ⟨S512x1024, .f32⟩
  | .local _ .vmem, ⟨9, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x4096x1024_S16384x1024 : S4x4096x1024.ShapeCasts S16384x1024
  bitsLt_bf16_f32 : FTy.bits .bf16 < FTy.bits .f32
  shapeCasts_S4096_S1x4096 : S4096.ShapeCasts S1x4096
  shapeCasts_S1024_S1x1024 : S1024.ShapeCasts S1x1024
  shapeCasts_S4x4096_S16384x1 : S4x4096.ShapeCasts S16384x1
  bcast_S_S16384x1 : S_.BroadcastsInDim S16384x1 (![] : Fin 0 → Fin S16384x1.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  shapeCasts_S16384x1024_S4x4096x1024 : S16384x1024.ShapeCasts S4x4096x1024
  dot_S512x1024_S1024x4096_S512x4096_1_0_0_1_n_n_wf : DotDims.WF S512x1024 S1024x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .bf16 = 32 ∨ (Rect.block (s := S16384x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S16384x1.size a
  hwx0_5 : ∀ i : grid0.Coords, EltTy.bits .f32 = 32 ∨ (Rect.block (s := S16384x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x4096 : Shape := ⟨2, ![4, 4096]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x4096x4096 : Shape := ⟨3, ![4, 4096, 4096]⟩
abbrev S1x1x4096 : Shape := ⟨3, ![1, 1, 4096]⟩
abbrev S_ : Shape := ⟨0, ![]⟩
abbrev S1x1x1024 : Shape := ⟨3, ![1, 1, 1024]⟩
abbrev S4x4096x1 : Shape := ⟨3, ![4, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S4x4096x4096, .f32⟩
  | .hbm, ⟨7, _⟩ => ⟨S1x1x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x1024, .f32⟩
  | .hbm, ⟨14, _⟩ => ⟨S1x1x1024, .f32⟩
  | .hbm, ⟨15, _⟩ => ⟨S4x4096x1024, .f32⟩
  | .hbm, ⟨16, _⟩ => ⟨S4x4096x1024, .f32⟩
  | .hbm, ⟨17, _⟩ => ⟨S4x4096, .f32⟩
  | .hbm, ⟨18, _⟩ => ⟨S_, .f32⟩
  | .hbm, ⟨19, _⟩ => ⟨S4x4096, .f32⟩
  | .hbm, ⟨20, _⟩ => ⟨S4x4096, .i1⟩
  | .hbm, ⟨21, _⟩ => ⟨S4x4096x1, .i1⟩
  | .hbm, ⟨22, _⟩ => ⟨S_, .f32⟩
  | .hbm, ⟨23, _⟩ => ⟨S4x4096x1024, .i1⟩
  | .hbm, ⟨24, _⟩ => ⟨S4x4096x1024, .f32⟩
  | .hbm, ⟨25, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x1024_0_1_2 : S4x4096x1.BroadcastsInDim S4x4096x1024 (![0, 1, 2] : Fin 3 → Fin S4x4096x1024.rank)
  bcast_S_S4x4096x1024 : S_.BroadcastsInDim S4x4096x1024 (![] : Fin 0 → Fin S4x4096x1024.rank)
  dot_S4x4096x1024_S1024x4096_S4x4096x4096_2_0_01_1_n_n_wf : DotDims.WF S4x4096x1024 S1024x4096 S4x4096x4096 [2] [0] [0, 1] [1] [] []
  dot_S4x4096x4096_S4096x1024_S4x4096x1024_2_0_01_1_n_n_wf : DotDims.WF S4x4096x4096 S4096x1024 S4x4096x1024 [2] [0] [0, 1] [1] [] []

variable [Facts₀]

def dot_S4x4096x1024_S1024x4096_S4x4096x4096_2_0_01_1_n_n : DotDims S4x4096x1024 S1024x4096 S4x4096x4096 where
  lhsContracting := [2]
  rhsContracting := [0]
  lhsNonContracting := [0, 1]
  rhsNonContracting := [1]
  lhsBatch := []
  rhsBatch := []
  wf := dot_S4x4096x1024_S1024x4096_S4x4096x4096_2_0_01_1_n_n_wf
def dot_S4x4096x4096_S4096x1024_S4x4096x1024_2_0_01_1_n_n : DotDims S4x4096x4096 S4096x1024 S4x4096x1024 where
  lhsContracting := [2]
  rhsContracting := [0]
  lhsNonContracting := [0, 1]
  rhsNonContracting := [1]
  lhsBatch := []
  rhsBatch := []
  wf := dot_S4x4096x4096_S4096x1024_S4x4096x1024_2_0_01_1_n_n_wf

class Facts : Prop extends Facts₀ where

variable [Facts]
-- ==== Proof.FfnSpec.lean ====
/-
  The function both programs compute, stated once over the argument arrays, index by index, on the extended reals.

  A token is a pair (b, l) of a batch entry and a position; it carries a row x[b, l, ·] of 1024 features and an integer
  padding flag. The position-wise feed-forward network sends the row through a dense layer to 4096 hidden units, a
  rectifier, and a second dense layer back to 1024 features:
      hidden(b, l, f) = max(∑ₖ x[b, l, k] · W1[k, f] + b1[f], 0)
      dense(b, l, h)  = ∑_f hidden(b, l, f) · W2[f, h] + b2[h],
  and a token whose flag, read as a real number, is not below the threshold has its output row replaced by zeros:
      out[b, l, h] = dense(b, l, h) if flag(b, l) < threshold, and 0 otherwise.
  The threshold is the single-precision constant nearest 1e-9; both programs compare against the same word, which is
  never evaluated here.

  One program zeroes the rows by selecting, the other by multiplying with the indicator of the kept tokens (1 where the
  flag is below the threshold, 0 elsewhere). `mul_indicator` says the two agree for EVERY extended real: y · 1 = y and
  y · 0 = 0 hold at the infinities too, so no finiteness of the inputs is needed anywhere.
-/
import Idealize.ShloMosaic.PureOps.Ideal
import Idealize.ShloMosaic.PureOps.Ideal.Laws
import Idealize.ShloMosaic.Lib.ValueIdx

noncomputable section

namespace Cert.FfnSpec

open Idealize.ShloMosaic Idealize.ShloMosaic.ValueIdx

/-- The tokens' features: [batch, position, feature]. -/
abbrev SX : Shape := ⟨3, ![4, 4096, 1024]⟩
/-- The padding flags: [batch, position]. -/
abbrev SPad : Shape := ⟨2, ![4, 4096]⟩
/-- The first layer's weights [feature, hidden unit] and bias [hidden unit]. -/
abbrev SW1 : Shape := ⟨2, ![1024, 4096]⟩
abbrev SB1 : Shape := ⟨1, ![4096]⟩
/-- The second layer's weights [hidden unit, feature] and bias [feature]. -/
abbrev SW2 : Shape := ⟨2, ![4096, 1024]⟩
abbrev SB2 : Shape := ⟨1, ![1024]⟩

/-- Hidden unit `f` of token (b, l): the rectified first dense layer. -/
def hidden (x : SX.Idx → EReal) (W1 : SW1.Idx → EReal) (b1 : SB1.Idx → EReal) (b : Fin 4) (l : Fin 4096) (f : Fin 4096) : EReal :=
  max ((∑ k : Fin 1024, x (ix3 b l k) * W1 (ix2 k f)) + b1 (ix1 f)) (Ideal.ofBits .f32 0x00000000#32)

/-- Output feature `h` of token (b, l) before the padded tokens are zeroed: the second dense layer of the hidden units. -/
def dense (x : SX.Idx → EReal) (W1 : SW1.Idx → EReal) (b1 : SB1.Idx → EReal) (W2 : SW2.Idx → EReal) (b2 : SB2.Idx → EReal)
    (b : Fin 4) (l : Fin 4096) (h : Fin 1024) : EReal :=
  (∑ f : Fin 4096, hidden x W1 b1 b l f * W2 (ix2 f h)) + b2 (ix1 h)

/-- Whether token (b, l) is kept: its flag, read as a real number, is below the threshold. -/
def kept (pad : SPad.Idx → BitVec 32) (b : Fin 4) (l : Fin 4096) : BitVec 1 :=
  FloatOps.cmpf (F := Ideal) (φ := .f32) .olt (FloatOps.sitofp (F := Ideal) .f32 (pad (ix2 b l))) (Ideal.ofBits .f32 0x3089705F#32)

/-- THE RESULT: the network's output on the kept tokens, zero rows on the others. -/
def out (x : SX.Idx → EReal) (pad : SPad.Idx → BitVec 32) (W1 : SW1.Idx → EReal) (b1 : SB1.Idx → EReal) (W2 : SW2.Idx → EReal)
    (b2 : SB2.Idx → EReal) : SX.Idx → EReal := fun i =>
  Scalar.select (kept pad (i 0) (i 1)) (dense x W1 b1 W2 b2 (i 0) (i 1) (i 2)) (Ideal.ofBits .f32 0x00000000#32)

/-- Zeroing by the indicator is zeroing by selection, on every extended real: the indicator of a one-bit condition is
    exactly 1 or 0, y · 1 = y, and y · 0 = 0 whatever y is. -/
theorem mul_indicator (y : EReal) (c : BitVec 1) :
    y * FloatOps.uitofp (F := Ideal) .f32 c = Scalar.select c y (Ideal.ofBits .f32 0x00000000#32) := by
  by_cases h : c = 1#1
  · subst h
    rw [select_one]
    show y * (((1#1 : BitVec 1).toNat : ℝ) : EReal) = y
    simp
  · have h0 := eq_zero_of_ne_one h
    subst h0
    rw [select_zero, Ideal.ofBits_zero_f32]
    show y * (((0#1 : BitVec 1).toNat : ℝ) : EReal) = 0
    simp

end Cert.FfnSpec

end
-- ==== Proof.ReferenceIsSpec.lean ====
/-
  The reference program computes the specification.

  Read one operation at a time, the reference's result at an index (b, l, h) is a selection on the comparison of token
  (b, l)'s flag with the threshold, between the second dense layer's sum at (b, l, h) plus its bias and zero. Every
  layout operation on the way (a bias broadcast along batch and position, the comparison broadcast along the features)
  only re-reads an operand at an index computed from (b, l, h); the six equations below name those composed indices by
  their coordinates. Both contractions run over the same coordinates in the same order as the specification's sums, so
  after the indices are named the two sides are the same expression.
-/
import proofs.«147032_j27685359190083_1_alg».proof.Proof.ReferenceReadP
import proofs.«147032_j27685359190083_1_alg».proof.Proof.FfnSpec

noncomputable section

namespace Cert.ReferenceIdeal.IsSpec

open Cert.ReferenceIdeal Cert.ReferenceIdeal.ReadP Idealize.ShloMosaic Idealize.ShloMosaic.ValueIdx

/-- The flag the selection at (b, l, h) reads is token (b, l)'s. -/
theorem flag_idx (i : S4x4096x1024.Idx) : idx_main_v12 (idx_main_call1_v0 i) = ix2 (n0 := 4) (n1 := 4096) (i 0) (i 1) :=
  funext fun a => Fin.ext (by match a with | ⟨0, _⟩ => rfl | ⟨1, _⟩ => rfl)

/-- The first contraction, for hidden unit `f` of the token of (b, l, h), reads feature `k` of that token's row, -/
theorem row_idx (i : S4x4096x1024.Idx) (f : Fin 4096) (k : Fin 1024) :
    lidx_main_v0 (lidx_main_v5 i f) k = ix3 (n0 := 4) (n1 := 4096) (n2 := 1024) (i 0) (i 1) k :=
  funext fun a => Fin.ext (by match a with | ⟨0, _⟩ => rfl | ⟨1, _⟩ => rfl | ⟨2, _⟩ => rfl)

/-- against the first layer's weight from feature `k` to hidden unit `f`, -/
theorem w1_idx (i : S4x4096x1024.Idx) (f : Fin 4096) (k : Fin 1024) :
    ridx_main_v0 (lidx_main_v5 i f) k = ix2 (n0 := 1024) (n1 := 4096) k f :=
  funext fun a => Fin.ext (by match a with | ⟨0, _⟩ => rfl | ⟨1, _⟩ => rfl)

/-- and adds hidden unit `f`'s bias. -/
theorem b1_idx (i : S4x4096x1024.Idx) (f : Fin 4096) : idx_main_v1 (idx_main_v2 (lidx_main_v5 i f)) = ix1 (n := 4096) f :=
  funext fun a => Fin.ext (by match a with | ⟨0, _⟩ => rfl)

/-- The second contraction at (b, l, h) reads the second layer's weight from hidden unit `f` to feature `h`, -/
theorem w2_idx (i : S4x4096x1024.Idx) (f : Fin 4096) : ridx_main_v5 i f = ix2 (n0 := 4096) (n1 := 1024) f (i 2) :=
  funext fun a => Fin.ext (by match a with | ⟨0, _⟩ => rfl | ⟨1, _⟩ => rfl)

/-- and adds feature `h`'s bias. -/
theorem b2_idx (i : S4x4096x1024.Idx) : idx_main_v6 (idx_main_v7 i) = ix1 (n := 1024) (i 2) :=
  funext fun a => Fin.ext (by match a with | ⟨0, _⟩ => rfl)

/-- THE REFERENCE IS THE SPECIFICATION: its last stage, as a function of the six argument arrays, is `FfnSpec.out` of them. -/
theorem reference_eq_out (x0 : (⟨S4x4096x1024, .f32⟩ : BufTy).Contents (Elt Ideal)) (x1 : (⟨S4x4096, .i32⟩ : BufTy).Contents (Elt Ideal))
    (x2 : (⟨S1024x4096, .f32⟩ : BufTy).Contents (Elt Ideal)) (x3 : (⟨S4096, .f32⟩ : BufTy).Contents (Elt Ideal))
    (x4 : (⟨S4096x1024, .f32⟩ : BufTy).Contents (Elt Ideal)) (x5 : (⟨S1024, .f32⟩ : BufTy).Contents (Elt Ideal)) :
    val_main_v13 (F := Ideal) x0 x1 x2 x3 x4 x5 = Cert.FfnSpec.out x0 x1 x2 x3 x4 x5 := by
  funext i
  rw [val_main_v13_apply, val_main_call1_v0_apply, val_main_v12_apply, val_main_v11_apply, val_main_v9_apply, val_main_v10_apply,
    val_main_cst_apply, val_main_call1_v1_apply, val_main_cst_0_apply, val_main_v8_apply, val_main_v5_apply, val_main_v7_apply,
    val_main_v6_apply]
  simp only [val_main_v4_apply, val_main_v3_apply, val_main_v0_apply, val_main_v2_apply, val_main_v1_apply, val_main_call0_v0_apply,
    val_main_call0_cst_apply, flag_idx, row_idx, w1_idx, b1_idx, w2_idx, b2_idx]
  rfl

end Cert.ReferenceIdeal.IsSpec

end
-- ==== Proof.KernelPayload.lean ====
/-
  The kernel body's arithmetic, read at an index.

  At a grid point the body holds a block of 512 token rows `xb` [512, 1024], both weight matrices whole, both biases as
  one-row arrays, and the block's 512 indicator values as a one-column array. What it stores at row `p`, feature `q` is
      ((∑_f max(∑ₖ xb[p, k] · W1[k, f] + b1[0, f], 0) · W2[f, q]) + b2[0, q]) · ind[p, 0]:
  each matrix product into a zero accumulator is the plain sum over the shared coordinate, a one-row bias broadcast down
  the rows reads its row, the one-column indicator broadcast along the features reads its column, casts to the same
  shape and changes of float format are the identity on the extended reals.
-/
import proofs.«147032_j27685359190083_1_alg».proof.Proof.Gen.KernelIdeal.Skeleton
import proofs.«147032_j27685359190083_1_alg».proof.Proof.FfnSpec
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Its output row is the left operand's row, whatever the contracted coordinate. -/
theorem first_product_lhs_row (j : S512x4096.Idx) (q : dot_S512x1024_S1024x4096_S512x4096_1_0_0_1_n_n.contr.Idx) : (dot_S512x1024_S1024x4096_S512x4096_1_0_0_1_n_n.lhsIdx j q 0).val = (j 0).val := by
  unfold DotDims.lhsIdx
  rw [dif_neg (show ¬(0 : Fin S512x1024.rank) ∈ dot_S512x1024_S1024x4096_S512x4096_1_0_0_1_n_n.lhsBatch by decide), dif_pos (show (0 : Fin S512x1024.rank) ∈ dot_S512x1024_S1024x4096_S512x4096_1_0_0_1_n_n.lhsNonContracting by decide)]
  rfl
/-- Its output column is the right operand's column, whatever the contracted coordinate. -/
theorem first_product_rhs_col (j : S512x4096.Idx) (q : dot_S512x1024_S1024x4096_S512x4096_1_0_0_1_n_n.contr.Idx) : (dot_S512x1024_S1024x4096_S512x4096_1_0_0_1_n_n.rhsIdx j q 1).val = (j 1).val := by
  unfold DotDims.rhsIdx
  rw [dif_neg (show ¬(1 : Fin S1024x4096.rank) ∈ dot_S512x1024_S1024x4096_S512x4096_1_0_0_1_n_n.rhsBatch by decide), dif_pos (show (1 : Fin S1024x4096.rank) ∈ dot_S512x1024_S1024x4096_S512x4096_1_0_0_1_n_n.rhsNonContracting by decide)]
  rfl
/-- THE FIRST MATRIX PRODUCT, rows of the block against the first layer's weights, at row `p` and hidden unit `c`. -/
theorem first_product_apply (l : FVec Ideal S512x1024 .bf16) (r : FVec Ideal S1024x4096 .bf16) (p : Fin 512) (c : Fin 4096) :
    matmul dot_S512x1024_S1024x4096_S512x4096_1_0_0_1_n_n none l r (constant (F := Ideal) S512x4096 .f32 0x00000000#32) (ix2 p c)
      = ∑ k : Fin 1024, l (ix2 p k) * r (ix2 k c) := by
  simp only [matmul]
  rw [Ideal.matmul_constant_zero_apply, ← Equiv.sum_comp (contrEquiv1 dot_S512x1024_S1024x4096_S512x4096_1_0_0_1_n_n 1024 rfl rfl).symm]
  refine Finset.sum_congr rfl fun k _ => ?_
  have hk := contrEquiv1_symm_val dot_S512x1024_S1024x4096_S512x4096_1_0_0_1_n_n 1024 rfl rfl k
  have el : dot_S512x1024_S1024x4096_S512x4096_1_0_0_1_n_n.lhsIdx (ix2 p c) ((contrEquiv1 dot_S512x1024_S1024x4096_S512x4096_1_0_0_1_n_n 1024 rfl rfl).symm k) = ix2 p k := funext fun a => Fin.ext (by
    match a with
    | ⟨0, _⟩ => exact first_product_lhs_row _ _
    | ⟨1, _⟩ => exact (dot_S512x1024_S1024x4096_S512x4096_1_0_0_1_n_n.lhsIdx_val_of_single rfl _ _).trans hk)
  have er : dot_S512x1024_S1024x4096_S512x4096_1_0_0_1_n_n.rhsIdx (ix2 p c) ((contrEquiv1 dot_S512x1024_S1024x4096_S512x4096_1_0_0_1_n_n 1024 rfl rfl).symm k) = ix2 k c := funext fun a => Fin.ext (by
    match a with
    | ⟨0, _⟩ => exact (dot_S512x1024_S1024x4096_S512x4096_1_0_0_1_n_n.rhsIdx_val_of_single rfl _ _).trans hk
    | ⟨1, _⟩ => exact first_product_rhs_col _ _)
  rw [el, er]

/-- Its output row is the left operand's row, whatever the contracted coordinate. -/
theorem second_product_lhs_row (j : S512x1024.Idx) (q : dot_S512x4096_S4096x1024_S512x1024_1_0_0_1_n_n.contr.Idx) : (dot_S512x4096_S4096x1024_S512x1024_1_0_0_1_n_n.lhsIdx j q 0).val = (j 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
/-- Its output column is the right operand's column, whatever the contracted coordinate. -/
theorem second_product_rhs_col (j : S512x1024.Idx) (q : dot_S512x4096_S4096x1024_S512x1024_1_0_0_1_n_n.contr.Idx) : (dot_S512x4096_S4096x1024_S512x1024_1_0_0_1_n_n.rhsIdx j q 1).val = (j 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl
/-- THE SECOND MATRIX PRODUCT, hidden rows against the second layer's weights, at row `p` and feature `c`. -/
theorem second_product_apply (l : FVec Ideal S512x4096 .bf16) (r : FVec Ideal S4096x1024 .bf16) (p : Fin 512) (c : Fin 1024) :
    matmul dot_S512x4096_S4096x1024_S512x1024_1_0_0_1_n_n none l r (constant (F := Ideal) S512x1024 .f32 0x00000000#32) (ix2 p c)
      = ∑ k : Fin 4096, l (ix2 p k) * r (ix2 k c) := by
  simp only [matmul]
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p c) ((contrEquiv1 dot_S512x4096_S4096x1024_S512x1024_1_0_0_1_n_n 4096 rfl rfl).symm k) = ix2 p k := funext fun a => Fin.ext (by
    match a with
    | ⟨0, _⟩ => exact second_product_lhs_row _ _
    | ⟨1, _⟩ => exact (dot_S512x4096_S4096x1024_S512x1024_1_0_0_1_n_n.lhsIdx_val_of_single rfl _ _).trans hk)
  have er : dot_S512x4096_S4096x1024_S512x1024_1_0_0_1_n_n.rhsIdx (ix2 p c) ((contrEquiv1 dot_S512x4096_S4096x1024_S512x1024_1_0_0_1_n_n 4096 rfl rfl).symm k) = ix2 k c := funext fun a => Fin.ext (by
    match a with
    | ⟨0, _⟩ => exact (dot_S512x4096_S4096x1024_S512x1024_1_0_0_1_n_n.rhsIdx_val_of_single rfl _ _).trans hk
    | ⟨1, _⟩ => exact second_product_rhs_col _ _)
  rw [el, er]

/-- The stored value as the tree of operations of the loaded blocks (the skeleton's payload with its bindings substituted). -/
theorem payload_tree {F : FTy → Type} [FloatOps F] (v0 : Vec F S512x1024 .bf16) (v2 : Vec F S1024x4096 .bf16) (v5 : Vec F S1x4096 .f32)
    (v12 : Vec F S4096x1024 .bf16) (v15 : Vec F S1x1024 .f32) (v19 : Vec F S512x1 .f32) :
    k0_pay1 (F := F) v0 v2 v5 v12 v15 v19 =
      mulf (addf (matmul dot_S512x4096_S4096x1024_S512x1024_1_0_0_1_n_n none
          (truncf .bf16 (maximumf (addf (matmul dot_S512x1024_S1024x4096_S512x4096_1_0_0_1_n_n none (shapeCast S512x1024 v0 shapeCasts_S512x1024_S512x1024)
              (shapeCast S1024x4096 v2 shapeCasts_S1024x4096_S1024x4096) (constant S512x4096 .f32 0x00000000#32))
            (broadcastTo S512x4096 (shapeCast S1x4096 v5 shapeCasts_S1x4096_S1x4096) broadcasts_S1x4096_S512x4096))
            (broadcast S512x4096 (Scalar.ofBits .f32 0x00000000#32))) bitsLt_bf16_f32)
          (shapeCast S4096x1024 v12 shapeCasts_S4096x1024_S4096x1024) (constant S512x1024 .f32 0x00000000#32))
        (broadcastTo S512x1024 (shapeCast S1x1024 v15 shapeCasts_S1x1024_S1x1024) broadcasts_S1x1024_S512x1024))
      (broadcastTo S512x1024 (shapeCast S512x1 v19 shapeCasts_S512x1_S512x1) broadcasts_S512x1_S512x1024) := rfl

/-- THE STORED VALUE AT ROW `p`, FEATURE `q`, on the extended reals. -/
theorem payload_apply (v0 : Vec Ideal S512x1024 .bf16) (v2 : Vec Ideal S1024x4096 .bf16) (v5 : Vec Ideal S1x4096 .f32)
    (v12 : Vec Ideal S4096x1024 .bf16) (v15 : Vec Ideal S1x1024 .f32) (v19 : Vec Ideal S512x1 .f32) (p : Fin 512) (q : Fin 1024) :
    k0_pay1 (F := Ideal) v0 v2 v5 v12 v15 v19 (ix2 p q) =
      ((∑ f : Fin 4096, max ((∑ k : Fin 1024, v0 (ix2 p k) * v2 (ix2 k f)) + v5 (ix2 (0 : Fin 1) f)) (Ideal.ofBits .f32 0x00000000#32)
          * v12 (ix2 f q)) + v15 (ix2 (0 : Fin 1) q)) * v19 (ix2 p (0 : Fin 1)) := by
  rw [payload_tree]
  simp only [shapeCast_self]
  rw [mulf_apply, addf_apply, second_product_apply, broadcastTo_1b_ab_apply, broadcastTo_a1_ab_apply]
  simp only [truncf_apply, maximumf_apply, addf_apply, broadcast_apply, first_product_apply, broadcastTo_1b_ab_apply]
  rfl

/-- ONE STORED ENTRY IS ONE ENTRY OF THE SPECIFICATION. If row `p` of the block of rows is token (b, l)'s row of the
    features `X`, the two weight blocks are the weights, the one-row bias blocks read the biases, and entry `p` of the
    indicator block is the indicator of "token (b, l) is kept", then what the body stores at row `p`, feature `q` is the
    specification's output for token (b, l) at feature `q`: the two nested sums are the specification's own, and the
    product with the indicator is the selection against zero (`mul_indicator`). -/
theorem point_eq (v0 : Vec Ideal S512x1024 .bf16) (v2 : Vec Ideal S1024x4096 .bf16) (v5 : Vec Ideal S1x4096 .f32)
    (v12 : Vec Ideal S4096x1024 .bf16) (v15 : Vec Ideal S1x1024 .f32) (v19 : Vec Ideal S512x1 .f32)
    (X : Cert.FfnSpec.SX.Idx → EReal) (pad : Cert.FfnSpec.SPad.Idx → BitVec 32) (W1 : Cert.FfnSpec.SW1.Idx → EReal)
    (B1 : Cert.FfnSpec.SB1.Idx → EReal) (W2 : Cert.FfnSpec.SW2.Idx → EReal) (B2 : Cert.FfnSpec.SB2.Idx → EReal)
    (p : Fin 512) (q : Fin 1024) (b : Fin 4) (l : Fin 4096)
    (h0 : ∀ k : Fin 1024, v0 (ix2 p k) = X (ix3 b l k)) (h1 : ∀ (k : Fin 1024) (f : Fin 4096), v2 (ix2 k f) = W1 (ix2 k f))
    (h2 : ∀ f : Fin 4096, v5 (ix2 (0 : Fin 1) f) = B1 (ix1 f)) (h3 : ∀ f : Fin 4096, v12 (ix2 f q) = W2 (ix2 f q))
    (h4 : v15 (ix2 (0 : Fin 1) q) = B2 (ix1 q))
    (h5 : v19 (ix2 p (0 : Fin 1)) = FloatOps.uitofp (F := Ideal) .f32 (Cert.FfnSpec.kept pad b l)) :
    k0_pay1 (F := Ideal) v0 v2 v5 v12 v15 v19 (ix2 p q) = Cert.FfnSpec.out X pad W1 B1 W2 B2 (ix3 b l q) := by
  rw [payload_apply, h4, h5, Cert.FfnSpec.mul_indicator]
  simp only [h0, h1, h2, h3]
  rfl

end Cert.KernelIdeal.Payload

end
-- ==== Proof.KernelEntry.lean ====
/-
  The arrays the kernel's region finds, read at an index.

  Before the region the program re-lays its arguments: the tokens' rows [4, 4096, 1024] become one matrix [16384, 1024]
  whose row r = b · 4096 + l is token (b, l)'s row; the two weight matrices are passed as they are; each bias [n] becomes
  a one-row array [1, n]; and the padding flags [4, 4096] become a column [16384, 1], are read as real numbers, compared
  with the threshold, and the one-bit answers are turned into the indicator column: 1 for a kept token, 0 for a padded
  one. The changes of float format on the way are the identity on the extended reals.
-/
import proofs.«147032_j27685359190083_1_alg».proof.Proof.Gen.KernelIdeal.Frame
import proofs.«147032_j27685359190083_1_alg».proof.Proof.FfnSpec
import Idealize.ShloMosaic.Lib.StableHlo.Run
import Idealize.ShloMosaic.Lib.ValueLayout
import Idealize.ShloMosaic.Lib.ValueIdx
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

/-! ## Re-laying read at an index -/

section Layout
variable {α : Type}

/-- Tokens' rows as one matrix: row r = b · 4096 + l is token (b, l)'s. -/
theorem rows_cast_apply (x : S4x4096x1024.Idx → α) (h : S4x4096x1024.ShapeCasts S16384x1024) (b : Fin 4) (l : Fin 4096)
    (r : Fin 16384) (hr : r.val = b.val * 4096 + l.val) (k : Fin 1024) :
    shapeCast S16384x1024 x h (ix2 r k) = x (ix3 b l k) :=
  shapeCast_apply x h _ _ (by
    rw [Shape.rowMajor_val_three, Shape.rowMajor_val_two]
    show (b.val * 4096 + l.val) * 1024 + k.val = r.val * 1024 + k.val
    rw [hr])

/-- The flags as a column: entry r = b · 4096 + l is token (b, l)'s. -/
theorem flags_cast_apply (x : S4x4096.Idx → α) (h : S4x4096.ShapeCasts S16384x1) (b : Fin 4) (l : Fin 4096)
    (r : Fin 16384) (hr : r.val = b.val * 4096 + l.val) :
    shapeCast S16384x1 x h (ix2 r (0 : Fin 1)) = x (ix2 b l) :=
  shapeCast_apply x h _ _ (by
    rw [Shape.rowMajor_val_two, Shape.rowMajor_val_two]
    show b.val * 4096 + l.val = r.val * 1 + 0
    omega)

end Layout

/-! ## The arrays at the region's entry, as the host operations' terms -/

section Generic
variable {F : FTy → Type} [FloatOps F]
variable (m : (ℓ : Loc nD τ sig) → Buf (Elt F) ℓ)

/-- The threshold spread over the column is the threshold at every entry. -/
theorem threshold_apply (w : BitVec 32) (j : S16384x1.Idx) :
    broadcastInDim S16384x1 ![] bcast_S_S16384x1 (constant (F := F) S_ .f32 w) j = FloatOps.ofBits .f32 w :=
  broadcastInDim_apply _ bcast_S_S16384x1 (constant (F := F) S_ .f32 w) j ix0 (fun a => a.elim0)

theorem rows_entry (c : Dev nD) : (V m c main_v1 : S16384x1024.Idx → F .bf16) =
    truncf .bf16 (shapeCast S16384x1024 (m ((c : Thread nD τ).loc main_arg0)) shapeCasts_S4x4096x1024_S16384x1024) bitsLt_bf16_f32 := by
  show StableHlo.after hostOps0 (fun b => m (c, b)) (Proc.devRef .tc main_v1) = _
  after_results
  rfl

theorem w1_entry (c : Dev nD) : (V m c main_v2 : S1024x4096.Idx → F .bf16) =
    truncf .bf16 (m ((c : Thread nD τ).loc main_arg2)) bitsLt_bf16_f32 := by
  show StableHlo.after hostOps0 (fun b => m (c, b)) (Proc.devRef .tc main_v2) = _
  after_results

theorem w2_entry (c : Dev nD) : (V m c main_v3 : S4096x1024.Idx → F .bf16) =
    truncf .bf16 (m ((c : Thread nD τ).loc main_arg4)) bitsLt_bf16_f32 := by
  show StableHlo.after hostOps0 (fun b => m (c, b)) (Proc.devRef .tc main_v3) = _
  after_results

theorem b1_entry (c : Dev nD) : (V m c main_v4 : S1x4096.Idx → F .f32) =
    shapeCast S1x4096 (m ((c : Thread nD τ).loc main_arg3)) shapeCasts_S4096_S1x4096 := by
  show StableHlo.after hostOps0 (fun b => m (c, b)) (Proc.devRef .tc main_v4) = _
  after_results
  rfl

theorem b2_entry (c : Dev nD) : (V m c main_v5 : S1x1024.Idx → F .f32) =
    shapeCast S1x1024 (m ((c : Thread nD τ).loc main_arg5)) shapeCasts_S1024_S1x1024 := by
  show StableHlo.after hostOps0 (fun b => m (c, b)) (Proc.devRef .tc main_v5) = _
  after_results
  rfl

theorem indicator_entry (c : Dev nD) : (V m c main_v10 : S16384x1.Idx → F .f32) =
    uitofp .f32 (cmpf (F := F) .olt (sitofp .f32 (shapeCast S16384x1 (m ((c : Thread nD τ).loc main_arg1)) shapeCasts_S4x4096_S16384x1))
      (broadcastInDim S16384x1 ![] bcast_S_S16384x1 (constant S_ .f32 0x3089705F#32))) := by
  show StableHlo.after hostOps0 (fun b => m (c, b)) (Proc.devRef .tc main_v10) = _
  after_results
  rfl

end Generic

/-! ## The same at an index, on the extended reals -/

variable (m : (ℓ : Loc nD τ sig) → Buf (Elt Ideal) ℓ)

/-- Row r = b · 4096 + l of the staged matrix is token (b, l)'s row of features. -/
theorem rows_apply (c : Dev nD) (b : Fin 4) (l : Fin 4096) (r : Fin 16384) (hr : r.val = b.val * 4096 + l.val) (k : Fin 1024) :
    (V m c main_v1 : S16384x1024.Idx → EReal) (ix2 r k) = m ((c : Thread nD τ).loc main_arg0) (ix3 b l k) :=
  (congrFun (rows_entry m c) (ix2 r k)).trans (rows_cast_apply _ _ b l r hr k)

/-- The staged weights are the arguments'. -/
theorem w1_apply (c : Dev nD) (j : S1024x4096.Idx) : (V m c main_v2 : S1024x4096.Idx → EReal) j = m ((c : Thread nD τ).loc main_arg2) j :=
  congrFun (w1_entry m c) j
theorem w2_apply (c : Dev nD) (j : S4096x1024.Idx) : (V m c main_v3 : S4096x1024.Idx → EReal) j = m ((c : Thread nD τ).loc main_arg4) j :=
  congrFun (w2_entry m c) j

/-- The one-row biases read the arguments' entries. -/
theorem b1_apply (c : Dev nD) (f : Fin 4096) :
    (V m c main_v4 : S1x4096.Idx → EReal) (ix2 (0 : Fin 1) f) = m ((c : Thread nD τ).loc main_arg3) (ix1 f) :=
  (congrFun (b1_entry m c) (ix2 (0 : Fin 1) f)).trans (shapeCast_a_1a_apply _ _ 0 f)
theorem b2_apply (c : Dev nD) (q : Fin 1024) :
    (V m c main_v5 : S1x1024.Idx → EReal) (ix2 (0 : Fin 1) q) = m ((c : Thread nD τ).loc main_arg5) (ix1 q) :=
  (congrFun (b2_entry m c) (ix2 (0 : Fin 1) q)).trans (shapeCast_a_1a_apply _ _ 0 q)

/-- Entry r = b · 4096 + l of the indicator column is the indicator of "token (b, l) is kept". -/
theorem indicator_apply (c : Dev nD) (b : Fin 4) (l : Fin 4096) (r : Fin 16384) (hr : r.val = b.val * 4096 + l.val) :
    (V m c main_v10 : S16384x1.Idx → EReal) (ix2 r (0 : Fin 1))
      = FloatOps.uitofp (F := Ideal) .f32 (Cert.FfnSpec.kept (m ((c : Thread nD τ).loc main_arg1)) b l) := by
  refine (congrFun (indicator_entry m c) (ix2 r (0 : Fin 1))).trans ?_
  show FloatOps.uitofp (F := Ideal) .f32 (FloatOps.cmpf (F := Ideal) (φ := .f32) .olt
      (FloatOps.sitofp (F := Ideal) .f32 (shapeCast S16384x1 (m ((c : Thread nD τ).loc main_arg1)) shapeCasts_S4x4096_S16384x1 (ix2 r (0 : Fin 1))))
      (broadcastInDim S16384x1 ![] bcast_S_S16384x1 (constant (F := Ideal) S_ .f32 0x3089705F#32) (ix2 r (0 : Fin 1)))) = _
  rw [flags_cast_apply _ _ b l r hr, threshold_apply]
  rfl

end Cert.KernelIdeal.Entry

end
-- ==== Proof.KernelBlocks.lean ====
/-
  From what each grid point writes to the whole written matrix.

  The region runs 32 points; point t holds rows 512·t … 512·t + 511 of the staged token matrix and of the indicator
  column, all of both weight matrices and both one-row biases, and writes back rows 512·t … 512·t + 511 of the result
  matrix [16384, 1024]. Row r of that matrix belongs to token (r / 4096, r % 4096). So what point t writes is block t
  of ONE function of the argument arrays — the specification's output with its two token coordinates merged into the
  row — and since the 32 blocks tile the matrix (row r lies in block r / 512), the matrix after the run IS that function.
-/
import proofs.«147032_j27685359190083_1_alg».proof.Proof.Gen.KernelIdeal.Frame
import proofs.«147032_j27685359190083_1_alg».proof.Proof.FfnSpec
import proofs.«147032_j27685359190083_1_alg».proof.Proof.KernelPayload
import proofs.«147032_j27685359190083_1_alg».proof.Proof.KernelEntry
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

/-- The specification's output with batch and position merged into one row coordinate: row r is token (r / 4096, r % 4096). -/
def rowsOut (X : Cert.FfnSpec.SX.Idx → EReal) (pad : Cert.FfnSpec.SPad.Idx → BitVec 32) (W1 : Cert.FfnSpec.SW1.Idx → EReal)
    (B1 : Cert.FfnSpec.SB1.Idx → EReal) (W2 : Cert.FfnSpec.SW2.Idx → EReal) (B2 : Cert.FfnSpec.SB2.Idx → EReal) :
    S16384x1024.Idx → EReal := fun i =>
  Cert.FfnSpec.out X pad W1 B1 W2 B2 (ix3 (n0 := 4) (n1 := 4096) (n2 := 1024)
    ⟨(i 0).val / 4096, by have := idx2_lt0 (n0 := 16384) (n1 := 1024) i; omega⟩ ⟨(i 0).val % 4096, Nat.mod_lt _ (by decide)⟩ (i 1))

variable (m : (ℓ : Loc nD τ sig) → Buf (Elt Ideal) ℓ)

/-- That function of the program's six argument arrays, as launched. -/
abbrev written (c : Dev nD) : S16384x1024.Idx → EReal :=
  rowsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem offset_zero : (![0, 0] : Fin 2 → Nat) = fun _ => 0 := funext fun a => by fin_cases a <;> rfl

/-- The index maps over the 32 points: the token rows and the indicator column move with the result's block of rows,
    every other window stays at its one block, and the result's block row is at most 31. -/
theorem index_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = win0_6.index t (0 : Fin 2) ∧ win0_5.index t (1 : Fin 2) = 0
    ∧ win0_6.index t (1 : Fin 2) = 0 ∧ win0_6.index t (0 : Fin 2) ≤ 31 :=
  (by decide +kernel : ∀ t : Fin grid0.N, _)

/-- Every block of rows of the result is some point's. -/
theorem index_onto : ∀ q0 : Fin 32, ∃ t : Fin cfg0.N, win0_6.index t = ![q0.val, 0] :=
  (by decide +kernel : ∀ q0 : Fin 32, ∃ t : Fin grid0.N, win0_6.index t = ![q0.val, 0])

/-- WHAT POINT `t` WRITES BACK is block `t` of `written`. -/
theorem flushed_eq (c : Dev nD) (t : Fin cfg0.N) :
    (dats m 0 c).flushed 6 t = ((cfg0.win 6).blk t).view.read (Elt Ideal) (written m c) := by
  show (cfg0.win 6).cut (grid0.coords t) ((dats m 0 c).after 6 t) = _
  rw [after0_6]
  unfold out0_6
  rw [View.canon_unit_zero offset_zero]
  simp only [View.ld_unit_zero (S := S512x1024) offset_zero, View.ld_unit_zero (S := S1024x4096) offset_zero,
    View.ld_unit_zero (S := S1x4096) offset_zero, View.ld_unit_zero (S := S4096x1024) offset_zero,
    View.ld_unit_zero (S := S1x1024) offset_zero, View.ld_unit_zero (S := S512x1) offset_zero]
  obtain ⟨e00, e01, e10, e11, e20, e21, e30, e31, e40, e41, e50, e51, e61, e6b⟩ := index_facts t
  funext j
  obtain ⟨p, q, rfl⟩ : ∃ (p : Fin 512) (q : Fin 1024), j = ix2 p q := ⟨j 0, j 1, eq_ix2 j⟩
  have hp : p.val < 512 := p.isLt
  -- the row of the result this entry lands on, and its token
  obtain ⟨r, hrv⟩ : ∃ r : Fin 16384, r.val = win0_6.index t (0 : Fin 2) * 512 + p.val := ⟨⟨_, by omega⟩, rfl⟩
  have hr4 : r.val / 4096 < 4 := by have := r.isLt; omega
  have hrm : r.val % 4096 < 4096 := Nat.mod_lt _ (by decide)
  have hr : r.val = (⟨r.val / 4096, hr4⟩ : Fin 4).val * 4096 + (⟨r.val % 4096, hrm⟩ : Fin 4096).val := by
    show r.val = r.val / 4096 * 4096 + r.val % 4096
    omega
  have h6 : ((cfg0.win 6).blk t).view.emb (ix2 p q) = ix2 r q := by
    funext a; apply Fin.ext
    match a with
    | ⟨0, _⟩ => show win0_6.index t (0 : Fin 2) * 512 + 1 * p.val = r.val; omega
    | ⟨1, _⟩ => show win0_6.index t (1 : Fin 2) * 1024 + 1 * q.val = q.val; omega
  show k0_pay1 (iblk m c 0 t) (iblk m c 1 t) (iblk m c 2 t) (iblk m c 3 t) (iblk m c 4 t) (iblk m c 5 t) (ix2 p q)
      = written m c (((cfg0.win 6).blk t).view.emb (ix2 p q))
  rw [h6]
  refine (Payload.point_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    p q ⟨r.val / 4096, hr4⟩ ⟨r.val % 4096, hrm⟩ ?_ ?_ ?_ ?_ ?_ ?_).trans ?_
  · intro k
    show (V m c main_v1 : S16384x1024.Idx → EReal) (((cfg0.win 0).blk t).view.emb (ix2 p k)) = _
    have h : ((cfg0.win 0).blk t).view.emb (ix2 p k) = ix2 r k := by
      funext a; apply Fin.ext
      match a with
      | ⟨0, _⟩ => show win0_0.index t (0 : Fin 2) * 512 + 1 * p.val = r.val; omega
      | ⟨1, _⟩ => show win0_0.index t (1 : Fin 2) * 1024 + 1 * k.val = k.val; omega
    rw [h]
    exact Entry.rows_apply m c _ _ r hr k
  · intro k f
    show (V m c main_v2 : S1024x4096.Idx → EReal) (((cfg0.win 1).blk t).view.emb (ix2 k f)) = _
    have h : ((cfg0.win 1).blk t).view.emb (ix2 k f) = ix2 k f := by
      funext a; apply Fin.ext
      match a with
      | ⟨0, _⟩ => show win0_1.index t (0 : Fin 2) * 1024 + 1 * k.val = k.val; omega
      | ⟨1, _⟩ => show win0_1.index t (1 : Fin 2) * 4096 + 1 * f.val = f.val; omega
    rw [h]
    exact Entry.w1_apply m c _
  · intro f
    show (V m c main_v4 : S1x4096.Idx → EReal) (((cfg0.win 2).blk t).view.emb (ix2 (0 : Fin 1) f)) = _
    have h : ((cfg0.win 2).blk t).view.emb (ix2 (0 : Fin 1) f) = ix2 (0 : Fin 1) f := by
      funext a; apply Fin.ext
      match a with
      | ⟨0, _⟩ => show win0_2.index t (0 : Fin 2) * 1 + 1 * 0 = 0; omega
      | ⟨1, _⟩ => show win0_2.index t (1 : Fin 2) * 4096 + 1 * f.val = f.val; omega
    rw [h]
    exact Entry.b1_apply m c f
  · intro f
    show (V m c main_v3 : S4096x1024.Idx → EReal) (((cfg0.win 3).blk t).view.emb (ix2 f q)) = _
    have h : ((cfg0.win 3).blk t).view.emb (ix2 f q) = ix2 f q := by
      funext a; apply Fin.ext
      match a with
      | ⟨0, _⟩ => show win0_3.index t (0 : Fin 2) * 4096 + 1 * f.val = f.val; omega
      | ⟨1, _⟩ => show win0_3.index t (1 : Fin 2) * 1024 + 1 * q.val = q.val; omega
    rw [h]
    exact Entry.w2_apply m c _
  · show (V m c main_v5 : S1x1024.Idx → EReal) (((cfg0.win 4).blk t).view.emb (ix2 (0 : Fin 1) q)) = _
    have h : ((cfg0.win 4).blk t).view.emb (ix2 (0 : Fin 1) q) = ix2 (0 : Fin 1) q := by
      funext a; apply Fin.ext
      match a with
      | ⟨0, _⟩ => show win0_4.index t (0 : Fin 2) * 1 + 1 * 0 = 0; omega
      | ⟨1, _⟩ => show win0_4.index t (1 : Fin 2) * 1024 + 1 * q.val = q.val; omega
    rw [h]
    exact Entry.b2_apply m c q
  · show (V m c main_v10 : S16384x1.Idx → EReal) (((cfg0.win 5).blk t).view.emb (ix2 p (0 : Fin 1))) = _
    have h : ((cfg0.win 5).blk t).view.emb (ix2 p (0 : Fin 1)) = ix2 r (0 : Fin 1) := by
      funext a; apply Fin.ext
      match a with
      | ⟨0, _⟩ => show win0_5.index t (0 : Fin 2) * 512 + 1 * p.val = r.val; omega
      | ⟨1, _⟩ => show win0_5.index t (1 : Fin 2) * 1 + 1 * 0 = 0; omega
    rw [h]
    exact Entry.indicator_apply m c _ _ r hr
  · rfl

/-- An index of the result matrix is in point `t`'s block iff each coordinate is in the block's range on its axis. -/
theorem mem_block (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v11).slice (win0_6.rect t)).set ↔ _
  rw [View.set_slice_whole, Rect.mem_set_unit]
  exact Iff.rfl

/-- THE BLOCKS TILE THE MATRIX: row r is in the block of the point whose block row is r / 512. -/
theorem covered (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ := index_onto ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- THE RESULT MATRIX AFTER THE RUN is `written`. -/
theorem final (c : Dev nD) : (dats m 0 c).arrAt 6 cfg0.N = written m c :=
  (dats m 0 c).arrAt_eq_of_cover 6 (written m c) (fun t _ => flushed_eq m c t) covered

end Cert.KernelIdeal.Blocks

end
-- ==== Proof.KernelRun.lean ====
/-
  The kernel program's run, with its result named.

  After the region the program re-lays the result matrix [16384, 1024] as [4, 4096, 1024]: entry (b, l, q) reads row
  b · 4096 + l of the matrix at feature q. That row is token (b, l)'s — (b · 4096 + l) / 4096 = b and
  (b · 4096 + l) % 4096 = l, as l < 4096 — so the program's result is the specification's output of its argument arrays,
  and every weakly fair execution ends with it there and the arguments unchanged.
-/
import proofs.«147032_j27685359190083_1_alg».proof.Proof.Gen.KernelIdeal.Frame
import proofs.«147032_j27685359190083_1_alg».proof.Proof.FfnSpec
import proofs.«147032_j27685359190083_1_alg».proof.Proof.KernelBlocks
import Idealize.ShloMosaic.Lib.StableHlo.Run
import Idealize.ShloMosaic.Lib.Pipeline.Value
import Idealize.ShloMosaic.Lib.ValueIdx

noncomputable section

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx

/-- The matrix re-laid by token: entry (b, l, q) reads row r = b · 4096 + l at feature q. -/
theorem rows_uncast_apply {α : Type} (y : S16384x1024.Idx → α) (h : S16384x1024.ShapeCasts S4x4096x1024) (b : Fin 4) (l : Fin 4096)
    (r : Fin 16384) (hr : r.val = b.val * 4096 + l.val) (q : Fin 1024) :
    shapeCast S4x4096x1024 y h (ix3 b l q) = y (ix2 r q) :=
  shapeCast_apply y h _ _ (by
    rw [Shape.rowMajor_val_three, Shape.rowMajor_val_two]
    show r.val * 1024 + q.val = (b.val * 4096 + l.val) * 1024 + q.val
    rw [hr])

section Generic
variable {F : FTy → Type} [FloatOps F]
variable (m : (ℓ : Loc nD τ sig) → Buf (Elt F) ℓ)

/-- What the operation after the region leaves in the program's result: the result matrix after the run, re-laid. -/
theorem tail_eq (c : Dev nD) :
    (Pipeline.afterTail₀ cfgs (dats m) 0 (V0 m) [hostOps1] c main_v12 : S4x4096x1024.Idx → F .f32)
      = shapeCast S4x4096x1024 ((dats m 0 c).arrAt 6 cfg0.N) shapeCasts_S16384x1024_S4x4096x1024 := by
  unfold Pipeline.afterTail₀
  show StableHlo.after hostOps1 _ (Proc.devRef .tc main_v12) = _
  after_results
  have hw : Pipeline.withArrays (cfgs 0).spec c (V0 m c) (fun w => (dats m 0 c).arrAt w (cfgs 0).N) (Proc.devRef .tc main_v11)
      = (dats m 0 c).arrAt 6 cfg0.N := Pipeline.withArrays_arr spec0 launch0.win.arr_inj c _ _ 6
  rw [hw]
  generalize (dats m 0 c).arrAt 6 cfg0.N = A
  rfl

end Generic

variable (m : (ℓ : Loc nD τ sig) → Buf (Elt Ideal) ℓ) (ρ : Dev nD → PrngReg)

/-- THE PROGRAM'S RESULT is the specification's output of the argument arrays. -/
theorem result_eq (c : Dev nD) :
    (Pipeline.afterTail₀ cfgs (dats m) 0 (V0 m) [hostOps1] c main_v12 : S4x4096x1024.Idx → EReal)
      = Cert.FfnSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [tail_eq, Blocks.final]
  funext i
  obtain ⟨b, l, q, rfl⟩ : ∃ (b : Fin 4) (l : Fin 4096) (q : Fin 1024), i = ix3 b l q := ⟨i 0, i 1, i 2, eq_ix3 i⟩
  have hb : b.val < 4 := b.isLt
  have hl : l.val < 4096 := l.isLt
  obtain ⟨r, hr⟩ : ∃ r : Fin 16384, r.val = b.val * 4096 + l.val := ⟨⟨_, by omega⟩, rfl⟩
  refine (rows_uncast_apply _ _ b l r hr q).trans ?_
  have eb : (⟨r.val / 4096, by have := r.isLt; omega⟩ : Fin 4) = b := Fin.ext (by show r.val / 4096 = b.val; omega)
  have el : (⟨r.val % 4096, Nat.mod_lt _ (by decide)⟩ : Fin 4096) = l := Fin.ext (by show r.val % 4096 = l.val; omega)
  show Cert.FfnSpec.out _ _ _ _ _ _ (ix3 (n0 := 4) (n1 := 4096) (n2 := 1024) ⟨r.val / 4096, _⟩ ⟨r.val % 4096, _⟩ q) = _
  rw [eb, el]

/-- THE RUN: from any memory with zero counters every weakly fair execution of the program terminates, its result
    holding the specification's output of the argument arrays, the arguments as launched. -/
theorem run : θ_run defs (onTc (τ := τ) (main (F := Ideal))) ⟨m, fun _ => 0, ρ⟩ fun r => ∀ c : Dev nD,
      r.2.mem ((c.tc : Thread nD τ).loc main_v12) = Cert.FfnSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.lean ====
/-
  A position-wise feed-forward network with padded tokens zeroed, as one fused kernel against its reference.

  Both programs take token features x [4, 4096, 1024], integer padding flags [4, 4096], and two dense layers
  (W1 [1024, 4096], b1 [4096]; W2 [4096, 1024], b2 [1024]). On the extended reals both compute, for token (b, l) and
  output feature h,
      out[b, l, h] = (∑_f max(∑ₖ x[b, l, k] · W1[k, f] + b1[f], 0) · W2[f, h]) + b2[h]   if flag(b, l) < threshold,
      out[b, l, h] = 0                                                                   otherwise
  (Proof/FfnSpec.lean). The reference contracts the three-axis arrays directly and zeroes the padded tokens by a
  selection (Proof/ReferenceIsSpec.lean, over the reference's run and its operations read one at a time). The kernel
  merges batch and position into 16384 rows, gives each of 32 grid points a block of 512 rows with the weights whole,
  multiplies each row's output by the indicator of "kept" — 1 or 0 — and re-lays the rows by token afterwards
  (Proof/KernelPayload.lean: one stored entry; Proof/KernelEntry.lean: the arrays the region finds;
  Proof/KernelBlocks.lean: the blocks tile the result matrix; Proof/KernelRun.lean: the re-laying and the run).
  The two agree for every extended real: the sums run over the same coordinates in the same order, a change of float
  format is the identity, and y · 1 = y, y · 0 = 0 hold at the infinities too. So the precondition (finite inputs) is
  never opened. No operation was rewritten by the idealization, so `preserves` has nothing to state.
-/
import proofs.«147032_j27685359190083_1_alg».proof.Defs
import proofs.«147032_j27685359190083_1_alg».proof.Proof.Gen.Kernel
import proofs.«147032_j27685359190083_1_alg».proof.Proof.Gen.Kernel.Skeleton
import proofs.«147032_j27685359190083_1_alg».proof.Proof.Gen.Kernel.Launch
import proofs.«147032_j27685359190083_1_alg».proof.Proof.Gen.Kernel.Points
import proofs.«147032_j27685359190083_1_alg».proof.Proof.Gen.Kernel.Frame
import proofs.«147032_j27685359190083_1_alg».proof.Proof.Gen.KernelIdeal
import proofs.«147032_j27685359190083_1_alg».proof.Proof.Gen.KernelIdeal.Skeleton
import proofs.«147032_j27685359190083_1_alg».proof.Proof.Gen.KernelIdeal.Launch
import proofs.«147032_j27685359190083_1_alg».proof.Proof.Gen.KernelIdeal.Points
import proofs.«147032_j27685359190083_1_alg».proof.Proof.Gen.KernelIdeal.Frame
import proofs.«147032_j27685359190083_1_alg».proof.Proof.Gen.ReferenceIdeal
import proofs.«147032_j27685359190083_1_alg».proof.Proof.Gen.Pre_finite_inputs
import proofs.«147032_j27685359190083_1_alg».proof.Proof.ReferenceRunP
import proofs.«147032_j27685359190083_1_alg».proof.Proof.ReferenceReadP
import proofs.«147032_j27685359190083_1_alg».proof.Proof.FfnSpec
import proofs.«147032_j27685359190083_1_alg».proof.Proof.ReferenceIsSpec
import proofs.«147032_j27685359190083_1_alg».proof.Proof.KernelRun
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On the extended reals, from memories that agree on the six arguments, both programs end with the specification's
    output of those arguments as their result. -/
theorem algebraic : Cert.algebraic_KernelIdeal_ReferenceIdeal := by
  intro m ρ m' ρ' _ hagree
  refine ⟨fun c => Cert.FfnSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v13_eq (F := Ideal) _ _ _ _ _ _).trans ?_
  rw [Cert.ReferenceIdeal.IsSpec.reference_eq_out, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
